-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256 .f32) (main_arg5 : FVec F S256x1024 .f32) (main_arg6 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x4096x1024 .f32) (main_arg1 : FVec F S1024 .f32) (main_arg2 : FVec F S1024 .f32) (main_arg3 : FVec F S1024x256 .f32) (main_arg4 : FVec F S256 .f32) (main_arg5 : FVec F S256x1024 .f32) (main_arg6 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_v13 main_v16
-- ==== Kernel.lean ====
abbrev S8x4096x1024 : Shape := ⟨3, ![8, 4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S32768x1024 : Shape := ⟨2, ![32768, 1024]⟩
abbrev S1x1024 : Shape := ⟨2, ![1, 1024]⟩
abbrev S1x256 : Shape := ⟨2, ![1, 256]⟩
abbrev S1024x1024 : Shape := ⟨2, ![1024, 1024]⟩
abbrev S1024x1 : Shape := ⟨2, ![1024, 1]⟩

abbrev nBuf : Space → Nat
  | .hbm => 16
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S256x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1x1024, .f32⟩
  | .hbm, ⟨10, _⟩ => ⟨S1x256, .f32⟩
  | .hbm, ⟨11, _⟩ => ⟨S1x1024, .f32⟩
  | .hbm, ⟨12, _⟩ => ⟨S1024x256, .bf16⟩
  | .hbm, ⟨13, _⟩ => ⟨S256x1024, .bf16⟩
  | .hbm, ⟨14, _⟩ => ⟨S32768x1024, .f32⟩
  | .hbm, ⟨15, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  shapeCasts_S1024_S1x1024 : S1024.ShapeCasts S1x1024
  shapeCasts_S256_S1x256 : S256.ShapeCasts S1x256
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S32768x1024_S8x4096x1024 : S32768x1024.ShapeCasts S8x4096x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S32768x1024.size a
  hwx0_7 : ∀ i : grid0.Coords, EltTy.bits .f32 = 32 ∨ (Rect.block (s := S32768x1024) S1024x1024.size (cc0_transform_7 i) (hinb0_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S1024x256 : Shape := ⟨2, ![1024, 256]⟩
abbrev S256 : Shape := ⟨1, ![256]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x256 : Shape := ⟨3, ![8, 4096, 256]⟩
abbrev S1x1x256 : Shape := ⟨3, ![1, 1, 256]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S256x1024, .f32⟩
  | .hbm, ⟨6, _⟩ => ⟨S1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S8x4096x256, .f32⟩
  | .hbm, ⟨37, _⟩ => ⟨S1x1x256, .f32⟩
  | .hbm, ⟨38, _⟩ => ⟨S8x4096x256, .f32⟩
  | .hbm, ⟨39, _⟩ => ⟨S8x4096x256, .f32⟩
  | .hbm, ⟨40, _⟩ => ⟨S_, .f32⟩
  | .hbm, ⟨41, _⟩ => ⟨S8x4096x256, .f32⟩
  | .hbm, ⟨42, _⟩ => ⟨S8x4096x256, .f32⟩
  | .hbm, ⟨43, _⟩ => ⟨S8x4096x256, .f32⟩
  | .hbm, ⟨44, _⟩ => ⟨S8x4096x256, .f32⟩
  | .hbm, ⟨45, _⟩ => ⟨S_, .f32⟩
  | .hbm, ⟨46, _⟩ => ⟨S8x4096x256, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S_, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x256 : S_.BroadcastsInDim S8x4096x256 (![] : Fin 0 → Fin S8x4096x256.rank)
  dot_S8x4096x1024_S1024x256_S8x4096x256_2_0_01_1_n_n_wf : DotDims.WF S8x4096x1024 S1024x256 S8x4096x256 [2] [0] [0, 1] [1] [] []
  dot_S8x4096x256_S256x1024_S8x4096x1024_2_0_01_1_n_n_wf : DotDims.WF S8x4096x256 S256x1024 S8x4096x1024 [2] [0] [0, 1] [1] [] []

variable [Facts₀]

def dot_S8x4096x1024_S1024x256_S8x4096x256_2_0_01_1_n_n : DotDims S8x4096x1024 S1024x256 S8x4096x256 where
  lhsContracting := [2]
  rhsContracting := [0]
  lhsNonContracting := [0, 1]
  rhsNonContracting := [1]
  lhsBatch := []
  rhsBatch := []
  wf := dot_S8x4096x1024_S1024x256_S8x4096x256_2_0_01_1_n_n_wf
def dot_S8x4096x256_S256x1024_S8x4096x1024_2_0_01_1_n_n : DotDims S8x4096x256 S256x1024 S8x4096x1024 where
  lhsContracting := [2]
  rhsContracting := [0]
  lhsNonContracting := [0, 1]
  rhsNonContracting := [1]
  lhsBatch := []
  rhsBatch := []
  wf := dot_S8x4096x256_S256x1024_S8x4096x1024_2_0_01_1_n_n_wf

class Facts : Prop extends Facts₀ where

variable [Facts]
-- ==== Proof.AdapterSpec.lean ====
/-
  The adapter block, row by row, on the extended reals.

  One row x of 1024 entries is layer-normalised (mean and variance over the row, the variance shifted by a
  small constant before the inverse square root, then a per-column weight and bias), projected down to 256
  entries by a matrix and a bias, passed through the tanh form of GELU, projected back up to 1024 entries by a
  second matrix and bias, and added to x.  Every sum is a plain finite sum and every operation the exact one;
  the float literals stay the bit patterns they are printed as, since both programs print the same ones.

  The whole result is this row function applied to each of the 8 · 4096 rows of the input, read either as the
  array [8, 4096, 1024] or as its flattening [32768, 1024]; the two readings agree because row (b, s) of the
  first is row 4096 b + s of the second.
-/
import Idealize.ShloMosaic.PureOps.Ideal
import Idealize.ShloMosaic.Lib.ValueIdx

noncomputable section

namespace Cert.Adapter

open Idealize.ShloMosaic Idealize.ShloMosaic.ValueIdx
open scoped BigOperators

/-- The row length 1024, as the float both programs divide by. -/
abbrev cLen : EReal := Ideal.ofBits .f32 0x44800000#32
/-- The shift of the variance (the float nearest 1e-5). -/
abbrev cEps : EReal := Ideal.ofBits .f32 0x3727C5AC#32
/-- GELU's one half. -/
abbrev cHalf : EReal := Ideal.ofBits .f32 0x3F000000#32
/-- GELU's cubic coefficient (the float nearest 0.044715). -/
abbrev cCube : EReal := Ideal.ofBits .f32 0x3D372713#32
/-- GELU's inner scale (the float nearest the square root of 2/π). -/
abbrev cScale : EReal := Ideal.ofBits .f32 0x3F4C422A#32
/-- GELU's one. -/
abbrev cOne : EReal := Ideal.ofBits .f32 0x3F800000#32

/-- The mean of a row. -/
def rowMean (x : Fin 1024 → EReal) : EReal := Ideal.div (∑ k, x k) cLen

/-- The variance of a row: the mean of the squared deviations from the row's mean. -/
def rowVar (x : Fin 1024 → EReal) : EReal := Ideal.div (∑ k, (x k - rowMean x) * (x k - rowMean x)) cLen

/-- The layer-normalised row: deviation times the inverse square root of the shifted variance, times the
    column's weight, plus the column's bias. -/
def normed (x w b : Fin 1024 → EReal) (k : Fin 1024) : EReal :=
  (x k - rowMean x) * Ideal.rsqrt (rowVar x + cEps) * w k + b k

/-- The down projection of the normalised row: entry a is the dot product with column a of the matrix, plus
    the bias. -/
def down (x w b : Fin 1024 → EReal) (wd : Fin 1024 → Fin 256 → EReal) (bd : Fin 256 → EReal) (a : Fin 256) : EReal :=
  (∑ k, normed x w b k * wd k a) + bd a

/-- The tanh form of GELU: d/2 · (1 + tanh (c · (d + c' · d³))), the cube taken as d · (d · d). -/
def gelu (d : EReal) : EReal :=
  cHalf * d * (cOne + Ideal.tanh (cScale * (d + cCube * (d * (d * d)))))

/-- The up projection of the activated 256 entries: entry j is the dot product with column j of the second
    matrix, plus the bias. -/
def up (x w b : Fin 1024 → EReal) (wd : Fin 1024 → Fin 256 → EReal) (bd : Fin 256 → EReal)
    (wu : Fin 256 → Fin 1024 → EReal) (bu : Fin 1024 → EReal) (j : Fin 1024) : EReal :=
  (∑ a, gelu (down x w b wd bd a) * wu a j) + bu j

/-- The adapter's output row: the up projection plus the input row. -/
def adapterRow (x w b : Fin 1024 → EReal) (wd : Fin 1024 → Fin 256 → EReal) (bd : Fin 256 → EReal)
    (wu : Fin 256 → Fin 1024 → EReal) (bu : Fin 1024 → EReal) (j : Fin 1024) : EReal :=
  up x w b wd bd wu bu j + x j

/-- The whole result over [8, 4096, 1024]: entry (b, s, j) is the adapter's output row of input row (b, s),
    read at j; the parameters are vectors and matrices. -/
def adapter3 (X : (⟨3, ![8, 4096, 1024]⟩ : Shape).Idx → EReal) (w b : (⟨1, ![1024]⟩ : Shape).Idx → EReal)
    (wd : (⟨2, ![1024, 256]⟩ : Shape).Idx → EReal) (bd : (⟨1, ![256]⟩ : Shape).Idx → EReal)
    (wu : (⟨2, ![256, 1024]⟩ : Shape).Idx → EReal) (bu : (⟨1, ![1024]⟩ : Shape).Idx → EReal) :
    (⟨3, ![8, 4096, 1024]⟩ : Shape).Idx → EReal := fun i =>
  adapterRow (fun k => X (ix3 (i 0) (i 1) k)) (fun k => w (ix1 k)) (fun k => b (ix1 k)) (fun k a => wd (ix2 k a))
    (fun a => bd (ix1 a)) (fun a j => wu (ix2 a j)) (fun j => bu (ix1 j)) (i 2)

/-- The same over the flattened rows [32768, 1024], the vector parameters laid out as one-row matrices: entry
    (r, j) is the adapter's output row of input row r, read at j. -/
def adapter2 (X : (⟨2, ![32768, 1024]⟩ : Shape).Idx → EReal) (w b : (⟨2, ![1, 1024]⟩ : Shape).Idx → EReal)
    (wd : (⟨2, ![1024, 256]⟩ : Shape).Idx → EReal) (bd : (⟨2, ![1, 256]⟩ : Shape).Idx → EReal)
    (wu : (⟨2, ![256, 1024]⟩ : Shape).Idx → EReal) (bu : (⟨2, ![1, 1024]⟩ : Shape).Idx → EReal) :
    (⟨2, ![32768, 1024]⟩ : Shape).Idx → EReal := fun i =>
  adapterRow (fun k => X (ix2 (i 0) k)) (fun k => w (ix2 0 k)) (fun k => b (ix2 0 k)) (fun k a => wd (ix2 k a))
    (fun a => bd (ix2 0 a)) (fun a j => wu (ix2 a j)) (fun j => bu (ix2 0 j)) (i 1)

end Cert.Adapter

end
-- ==== Proof.RefIsAdapter.lean ====
/-
  The reference computes the adapter block.

  Its host program is read one operation at a time: the two row sums and their quotients are the row's mean and
  variance, the broadcasts put each row's statistic and each column's parameter at every entry, the two
  contractions are the dot products of the down and the up projection, and the pointwise chain between them is
  the tanh form of GELU — with the cube grouped (d · d) · d, which commuting the product makes d · (d · d).
  The host's sums start from its zero constant, which adds nothing.
-/
import proofs.«118381_j35880156791633_2_alg».proof.Proof.Gen.ReferenceIdeal.Read
import proofs.«118381_j35880156791633_2_alg».proof.Proof.AdapterSpec

noncomputable section

namespace Cert.Adapter.Ref

open Cert.ReferenceIdeal Cert.ReferenceIdeal.Read Idealize.ShloMosaic Idealize.ShloMosaic.ValueIdx Cert.Adapter
open scoped BigOperators

/-! ## The index maps of the reference's operations, at an index given by its coordinates -/

section Indices
variable (p : Fin 8) (q : Fin 4096)

theorem idx_v0 (k : Fin 1024) : idx_main_v0 (ix2 p q) k = ix3 p q k := by
  funext a; match a with | ⟨0, _⟩ => rfl | ⟨1, _⟩ => rfl | ⟨2, _⟩ => rfl
theorem idx_v7 (k : Fin 1024) : idx_main_v7 (ix2 p q) k = ix3 p q k := by
  funext a; match a with | ⟨0, _⟩ => rfl | ⟨1, _⟩ => rfl | ⟨2, _⟩ => rfl
theorem idx_v1 (u : Fin 1) : idx_main_v1 (ix3 p q u) = ix2 p q := by
  funext a; match a with | ⟨0, _⟩ => rfl | ⟨1, _⟩ => rfl
theorem idx_v8 (u : Fin 1) : idx_main_v8 (ix3 p q u) = ix2 p q := by
  funext a; match a with | ⟨0, _⟩ => rfl | ⟨1, _⟩ => rfl
theorem idx_v4 (k : Fin 1024) : idx_main_v4 (ix3 p q k) = ix3 p q (0 : Fin 1) := by
  funext a; match a with | ⟨0, _⟩ => rfl | ⟨1, _⟩ => rfl | ⟨2, _⟩ => rfl
theorem idx_v11 (k : Fin 1024) : idx_main_v11 (ix3 p q k) = ix3 p q (0 : Fin 1) := by
  funext a; match a with | ⟨0, _⟩ => rfl | ⟨1, _⟩ => rfl | ⟨2, _⟩ => rfl
theorem idx_v16 (k : Fin 1024) : idx_main_v16 (ix3 p q k) = ix3 p q (0 : Fin 1) := by
  funext a; match a with | ⟨0, _⟩ => rfl | ⟨1, _⟩ => rfl | ⟨2, _⟩ => rfl
theorem idx_v19 (k : Fin 1024) : idx_main_v18 (idx_main_v19 (ix3 p q k)) = ix1 k := by
  funext a; match a with | ⟨0, _⟩ => rfl
theorem idx_v22 (k : Fin 1024) : idx_main_v21 (idx_main_v22 (ix3 p q k)) = ix1 k := by
  funext a; match a with | ⟨0, _⟩ => rfl
theorem idx_v26 (a : Fin 256) : idx_main_v25 (idx_main_v26 (ix3 p q a)) = ix1 a := by
  funext d; match d with | ⟨0, _⟩ => rfl
theorem idx_v43 (k : Fin 1024) : idx_main_v42 (idx_main_v43 (ix3 p q k)) = ix1 k := by
  funext a; match a with | ⟨0, _⟩ => rfl
theorem lidx_v24 (a : Fin 256) (k : Fin 1024) : lidx_main_v24 (ix3 p q a) k = ix3 p q k := by
  funext d; match d with | ⟨0, _⟩ => rfl | ⟨1, _⟩ => rfl | ⟨2, _⟩ => rfl
theorem ridx_v24 (a : Fin 256) (k : Fin 1024) : ridx_main_v24 (ix3 p q a) k = ix2 k a := by
  funext d; match d with | ⟨0, _⟩ => rfl | ⟨1, _⟩ => rfl
theorem lidx_v41 (j : Fin 1024) (a : Fin 256) : lidx_main_v41 (ix3 p q j) a = ix3 p q a := by
  funext d; match d with | ⟨0, _⟩ => rfl | ⟨1, _⟩ => rfl | ⟨2, _⟩ => rfl
theorem ridx_v41 (j : Fin 1024) (a : Fin 256) : ridx_main_v41 (ix3 p q j) a = ix2 a j := by
  funext d; match d with | ⟨0, _⟩ => rfl | ⟨1, _⟩ => rfl

end Indices

/-! ## The stages -/

section Stages
variable (x0 : (⟨S8x4096x1024, .f32⟩ : BufTy).Contents (Elt Ideal)) (x1 x2 : (⟨S1024, .f32⟩ : BufTy).Contents (Elt Ideal))
  (x3 : (⟨S1024x256, .f32⟩ : BufTy).Contents (Elt Ideal)) (x4 : (⟨S256, .f32⟩ : BufTy).Contents (Elt Ideal))
  (x5 : (⟨S256x1024, .f32⟩ : BufTy).Contents (Elt Ideal)) (x6 : (⟨S1024, .f32⟩ : BufTy).Contents (Elt Ideal))
  (p : Fin 8) (q : Fin 4096)

/-- The broadcast quotient of the first row sum is the row's mean. -/
theorem mean_apply (u : Fin 1) : val_main_v3 (F := Ideal) x0 (ix3 p q u) = rowMean (fun k => x0 (ix3 p q k)) := by
  rw [val_main_v3_apply, val_main_v1_apply, val_main_v0_apply, val_main_v2_apply, val_main_cst_0_apply, val_main_cst_apply]
  simp only [idx_v1, idx_v0, Ideal.hostDivf_def, Ideal.ofBits_def, Ideal.ofBits_zero_f32, zero_add]
  rfl

/-- The inverse square root of the shifted quotient of the second row sum is that of the row's shifted variance. -/
theorem rstd_apply (u : Fin 1) :
    val_main_v15 (F := Ideal) x0 (ix3 p q u) = Ideal.rsqrt (rowVar (fun k => x0 (ix3 p q k)) + cEps) := by
  rw [val_main_v15_apply, val_main_v14_apply, val_main_v10_apply, val_main_v8_apply, val_main_v7_apply, val_main_v9_apply,
    val_main_v13_apply, val_main_cst_2_apply, val_main_cst_3_apply, val_main_cst_1_apply]
  simp only [idx_v8, idx_v7, val_main_v6_apply, val_main_v5_apply, val_main_v4_apply, idx_v4, mean_apply, Ideal.hostDivf_def,
    Ideal.ofBits_def, Ideal.ofBits_zero_f32, zero_add, Ideal.hostUnary_rsqrt_def, Ideal.addf_def, Ideal.subf_def, Ideal.mulf_def]
  rfl

/-- The layer-normalised entry. -/
theorem normed_apply (k : Fin 1024) :
    val_main_v23 (F := Ideal) x0 x1 x2 (ix3 p q k)
      = normed (fun k => x0 (ix3 p q k)) (fun k => x1 (ix1 k)) (fun k => x2 (ix1 k)) k := by
  rw [val_main_v23_apply, val_main_v20_apply, val_main_v17_apply, val_main_v12_apply, val_main_v11_apply, val_main_v16_apply,
    val_main_v19_apply, val_main_v18_apply, val_main_v22_apply, val_main_v21_apply, idx_v11, idx_v16, idx_v19, idx_v22,
    mean_apply, rstd_apply]
  rfl

/-- The down projection's entry: the dot product with the matrix's column, plus the bias. -/
theorem down_apply (a : Fin 256) :
    val_main_v27 (F := Ideal) x0 x1 x2 x3 x4 (ix3 p q a)
      = down (fun k => x0 (ix3 p q k)) (fun k => x1 (ix1 k)) (fun k => x2 (ix1 k)) (fun k a => x3 (ix2 k a)) (fun a => x4 (ix1 a)) a := by
  rw [val_main_v27_apply, val_main_v24_apply, val_main_v26_apply, val_main_v25_apply, idx_v26]
  simp only [lidx_v24, ridx_v24, normed_apply]
  rfl

/-- The activated entry: the tanh form of GELU of the down projection's entry. -/
theorem gelu_apply (a : Fin 256) :
    val_main_v40 (F := Ideal) x0 x1 x2 x3 x4 (ix3 p q a)
      = gelu (down (fun k => x0 (ix3 p q k)) (fun k => x1 (ix1 k)) (fun k => x2 (ix1 k)) (fun k a => x3 (ix2 k a)) (fun a => x4 (ix1 a)) a) := by
  rw [val_main_v40_apply, val_main_v29_apply, val_main_v39_apply, val_main_v37_apply, val_main_v36_apply, val_main_v34_apply,
    val_main_v33_apply, val_main_v31_apply, val_main_v30_apply, val_main_v28_apply, val_main_v38_apply, val_main_v35_apply,
    val_main_v32_apply, val_main_cst_4_apply, val_main_cst_5_apply, val_main_cst_6_apply, val_main_cst_7_apply, down_apply]
  simp only [Ideal.hostUnary_tanh_def, Ideal.addf_def, Ideal.mulf_def, Ideal.ofBits_def]
  unfold gelu
  rw [mul_comm (down _ _ _ _ _ a * down _ _ _ _ _ a) (down _ _ _ _ _ a)]

/-- The result's entry: the up projection's dot product plus its bias, plus the input's entry. -/
theorem result_apply (j : Fin 1024) :
    val_main_v45 (F := Ideal) x0 x1 x2 x3 x4 x5 x6 (ix3 p q j)
      = adapterRow (fun k => x0 (ix3 p q k)) (fun k => x1 (ix1 k)) (fun k => x2 (ix1 k)) (fun k a => x3 (ix2 k a)) (fun a => x4 (ix1 a))
          (fun a j => x5 (ix2 a j)) (fun j => x6 (ix1 j)) j := by
  rw [val_main_v45_apply, val_main_v44_apply, val_main_v41_apply, val_main_v43_apply, val_main_v42_apply, idx_v43]
  simp only [lidx_v41, ridx_v41, gelu_apply]
  rfl

end Stages

/-- The reference's result is the adapter block of its arguments. -/
theorem val_eq_adapter3 (x0 : (⟨S8x4096x1024, .f32⟩ : BufTy).Contents (Elt Ideal)) (x1 x2 : (⟨S1024, .f32⟩ : BufTy).Contents (Elt Ideal))
    (x3 : (⟨S1024x256, .f32⟩ : BufTy).Contents (Elt Ideal)) (x4 : (⟨S256, .f32⟩ : BufTy).Contents (Elt Ideal))
    (x5 : (⟨S256x1024, .f32⟩ : BufTy).Contents (Elt Ideal)) (x6 : (⟨S1024, .f32⟩ : BufTy).Contents (Elt Ideal)) :
    val_main_v45 (F := Ideal) x0 x1 x2 x3 x4 x5 x6 = adapter3 x0 x1 x2 x3 x4 x5 x6 := by
  funext i
  obtain ⟨p, q, j, rfl⟩ : ∃ (p : Fin 8) (q : Fin 4096) (j : Fin 1024), i = ix3 p q j := ⟨i 0, i 1, i 2, eq_ix3 i⟩
  exact result_apply x0 x1 x2 x3 x4 x5 x6 p q j

end Cert.Adapter.Ref

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KernelRow.lean ====
/-
  One block of the kernel computes the adapter block row by row.

  The body loads a block of 1024 rows and the whole parameter arrays, and stores one value.  Read at row p and
  column j of the block, that value is the adapter's output row of the block's row p, read at j: the two lane
  sums kept as columns are the row's mean and variance, the two matrix products into a zero accumulator are the
  dot products of the down and the up projection (rounding the operands to a shorter float format changes
  nothing at the exact values), and the pointwise chain between them is the tanh form of GELU with the cube
  taken as d · (d · d).
-/
import proofs.«118381_j35880156791633_2_alg».proof.Proof.Gen.KernelIdeal.Frame
import proofs.«118381_j35880156791633_2_alg».proof.Proof.AdapterSpec
import proofs.«118381_j35880156791633_2_alg».proof.Proof.LibColumns
import proofs.«118381_j35880156791633_2_alg».proof.Proof.LibRows
import proofs.«118381_j35880156791633_2_alg».proof.Proof.LibPlainDot
import Idealize.ShloMosaic.Lib.Pipeline.Value
import Idealize.ShloMosaic.Lib.ValueIdx

noncomputable section

namespace Cert.Adapter.Kernel

open Cert.KernelIdeal Cert.KernelIdeal.Gen Idealize.ShloMosaic Idealize.ShloMosaic.ValueIdx Cert.Adapter
open scoped BigOperators

/-! ## The body's value, stage by stage, as whole-block terms -/

section Stages
variable (x0 : FVec Ideal S1024x1024 .f32) (x1 x2 : FVec Ideal S1x1024 .f32) (x3 : FVec Ideal S1024x256 .bf16)
  (x4 : FVec Ideal S1x256 .f32) (x5 : FVec Ideal S256x1024 .bf16) (x6 : FVec Ideal S1x1024 .f32)

/-- The lane sums of a block divided by the row length, kept as a column. -/
def meanOfCol (v : FVec Ideal S1024x1024 .f32) : FVec Ideal S1024x1 .f32 :=
  divf (shapeCast S1024x1 (multiReduction .add [1] S1024 v 0x00000000#32 reduces_S1024x1024_S1024 (.inl rfl) rfl) shapeCasts_S1024_S1024x1)
    (broadcast S1024x1 (Scalar.ofBits .f32 0x44800000#32))

/-- Each row's entries less the row's mean. -/
def centered : FVec Ideal S1024x1024 .f32 :=
  subf x0 (broadcastTo S1024x1024 (meanOfCol x0) broadcasts_S1024x1_S1024x1024)

/-- The inverse square root of each row's shifted variance, as a column. -/
def rstdCol : FVec Ideal S1024x1 .f32 :=
  rsqrt (addf (meanOfCol (mulf (centered x0) (centered x0))) (broadcast S1024x1 (Scalar.ofBits .f32 0x3727C5AC#32)))

/-- The layer-normalised block. -/
def normedBlk : FVec Ideal S1024x1024 .f32 :=
  addf (mulf (mulf (centered x0) (broadcastTo S1024x1024 (rstdCol x0) broadcasts_S1024x1_S1024x1024))
    (broadcastTo S1024x1024 x1 broadcasts_S1x1024_S1024x1024)) (broadcastTo S1024x1024 x2 broadcasts_S1x1024_S1024x1024)

/-- The down projection of the block. -/
def downBlk : FVec Ideal S1024x256 .f32 :=
  addf (matmul dot_S1024x1024_S1024x256_S1024x256_1_0_0_1_n_n none (truncf .bf16 (normedBlk x0 x1 x2) bitsLt_bf16_f32) x3
    (constant S1024x256 .f32 0x00000000#32)) (broadcastTo S1024x256 x4 broadcasts_S1x256_S1024x256)

/-- The tanh form of GELU, entry by entry. -/
def geluBlk (d : FVec Ideal S1024x256 .f32) : FVec Ideal S1024x256 .f32 :=
  mulf (mulf (broadcast S1024x256 (Scalar.ofBits .f32 0x3F000000#32)) d)
    (addf (broadcast S1024x256 (Scalar.ofBits .f32 0x3F800000#32))
      (tanh (mulf (broadcast S1024x256 (Scalar.ofBits .f32 0x3F4C422A#32))
        (addf d (mulf (broadcast S1024x256 (Scalar.ofBits .f32 0x3D372713#32)) (mulf d (mulf d d)))))))

/-- The block the body stores: the up projection plus the loaded block. -/
def outBlk : FVec Ideal S1024x1024 .f32 :=
  addf (addf (matmul dot_S1024x256_S256x1024_S1024x1024_1_0_0_1_n_n none
      (truncf .bf16 (geluBlk (downBlk x0 x1 x2 x3 x4)) bitsLt_bf16_f32) x5 (constant S1024x1024 .f32 0x00000000#32))
    (broadcastTo S1024x1024 x6 broadcasts_S1x1024_S1024x1024)) x0

end Stages

theorem zeroOffsets : (![0, 0] : Fin 2 → Nat) = fun _ => 0 := funext fun a => by fin_cases a <;> rfl

/-- The value the body keeps after its first matrix product is the down projection of the block. -/
theorem down_eq_downBlk (x0 : Vec Ideal S1024x1024 .f32) (x1 x2 : Vec Ideal S1x1024 .f32) (x3 : Vec Ideal S1024x256 .bf16)
    (x4 : Vec Ideal S1x256 .f32) : k0_pay3 (F := Ideal) x0 x1 x2 x3 x4 = downBlk x0 x1 x2 x3 x4 := by
  unfold k0_pay3 k0_pay2 downBlk normedBlk rstdCol centered meanOfCol
  simp only [shapeCast_self]

/-- What the body leaves in the output's staging buffer is that block. -/
theorem out_eq_outBlk (x0 : Vec Ideal S1024x1024 .f32) (x1 x2 : Vec Ideal S1x1024 .f32) (x3 : Vec Ideal S1024x256 .bf16)
    (x4 : Vec Ideal S1x256 .f32) (x5 : Vec Ideal S256x1024 .bf16) (x6 : Vec Ideal S1x1024 .f32) :
    out0_7 (F := Ideal) x0 x1 x2 x3 x4 x5 x6 = outBlk x0 x1 x2 x3 x4 x5 x6 := by
  unfold out0_7
  rw [View.canon_unit_zero zeroOffsets]
  simp only [View.ld_unit_zero (S := S1024x1024) zeroOffsets, View.ld_unit_zero (S := S1x1024) zeroOffsets,
    View.ld_unit_zero (S := S1024x256) zeroOffsets, View.ld_unit_zero (S := S1x256) zeroOffsets,
    View.ld_unit_zero (S := S256x1024) zeroOffsets]
  unfold k0_pay1 k0_pay4 k0_pay5 k0_pay6 k0_pay2 outBlk geluBlk
  simp only [down_eq_downBlk, shapeCast_self]

/-! ## The stages read at a row -/

section Rows
variable (x0 : FVec Ideal S1024x1024 .f32) (x1 x2 : FVec Ideal S1x1024 .f32) (x3 : FVec Ideal S1024x256 .bf16)
  (x4 : FVec Ideal S1x256 .f32) (x5 : FVec Ideal S256x1024 .bf16) (x6 : FVec Ideal S1x1024 .f32) (p : Fin 1024)

/-- The column of lane sums divided by the row length, at row p: the sum over the row, divided. -/
theorem meanOfCol_apply (v : FVec Ideal S1024x1024 .f32) (u : Fin 1) :
    meanOfCol v (ix2 p u) = Ideal.div (∑ k : Fin 1024, v (ix2 p k)) cLen := by
  unfold meanOfCol
  rw [divf_apply, broadcast_apply, Cert.Columns.shapeCast_a_a1_apply]
  exact congrArg (Ideal.div · _) (Cert.Columns.laneSum_apply v _ _ _ _ p)

theorem centered_apply (k : Fin 1024) : centered x0 (ix2 p k) = x0 (ix2 p k) - rowMean (fun k => x0 (ix2 p k)) := by
  unfold centered
  rw [subf_apply, Cert.Columns.broadcastTo_a1_ab_apply _ _ p k 0, meanOfCol_apply]
  rfl

theorem rstdCol_apply (u : Fin 1) : rstdCol x0 (ix2 p u) = Ideal.rsqrt (rowVar (fun k => x0 (ix2 p k)) + cEps) := by
  unfold rstdCol
  show Ideal.rsqrt (meanOfCol (mulf (centered x0) (centered x0)) (ix2 p u) + cEps) = _
  rw [meanOfCol_apply]
  simp only [mulf_apply, centered_apply]
  rfl

theorem normedBlk_apply (k : Fin 1024) :
    normedBlk x0 x1 x2 (ix2 p k) = normed (fun k => x0 (ix2 p k)) (fun k => x1 (ix2 0 k)) (fun k => x2 (ix2 0 k)) k := by
  unfold normedBlk
  rw [addf_apply, mulf_apply, mulf_apply, centered_apply, Cert.Columns.broadcastTo_a1_ab_apply _ _ p k 0, rstdCol_apply,
    Cert.Lib.Rows.broadcastTo_row_apply, Cert.Lib.Rows.broadcastTo_row_apply]
  rfl

theorem downBlk_apply (a : Fin 256) :
    downBlk x0 x1 x2 x3 x4 (ix2 p a)
      = down (fun k => x0 (ix2 p k)) (fun k => x1 (ix2 0 k)) (fun k => x2 (ix2 0 k)) (fun k a => x3 (ix2 k a)) (fun a => x4 (ix2 0 a)) a := by
  unfold downBlk
  rw [addf_apply, Cert.Lib.Rows.broadcastTo_row_apply]
  refine congrArg (· + _) ?_
  refine (Cert.Lib.PlainDot.matmul_plain_zero_apply (M := 1024) (K := 1024) (N := 256) none _ x3 p a).trans ?_
  exact Finset.sum_congr rfl fun k _ => congrArg (· * _) (normedBlk_apply x0 x1 x2 p k)

theorem geluBlk_apply (d : FVec Ideal S1024x256 .f32) (i : S1024x256.Idx) : geluBlk d i = gelu (d i) := rfl

theorem outBlk_apply (j : Fin 1024) :
    outBlk x0 x1 x2 x3 x4 x5 x6 (ix2 p j)
      = adapterRow (fun k => x0 (ix2 p k)) (fun k => x1 (ix2 0 k)) (fun k => x2 (ix2 0 k)) (fun k a => x3 (ix2 k a))
          (fun a => x4 (ix2 0 a)) (fun a j => x5 (ix2 a j)) (fun j => x6 (ix2 0 j)) j := by
  unfold outBlk
  rw [addf_apply, addf_apply, Cert.Lib.Rows.broadcastTo_row_apply]
  refine congrArg (· + _) (congrArg (· + _) ?_)
  refine (Cert.Lib.PlainDot.matmul_plain_zero_apply (M := 1024) (K := 256) (N := 1024) none _ x5 p j).trans ?_
  exact Finset.sum_congr rfl fun a _ => congrArg (· * _) (by
    show geluBlk (downBlk x0 x1 x2 x3 x4) (ix2 p a) = _
    rw [geluBlk_apply, downBlk_apply])

end Rows

/-- The value the body stores, read at row p and column j of the block, is the adapter's output row of the
    block's row p, read at j. -/
theorem out_apply (x0 : Vec Ideal S1024x1024 .f32) (x1 x2 : Vec Ideal S1x1024 .f32) (x3 : Vec Ideal S1024x256 .bf16)
    (x4 : Vec Ideal S1x256 .f32) (x5 : Vec Ideal S256x1024 .bf16) (x6 : Vec Ideal S1x1024 .f32) (p j : Fin 1024) :
    out0_7 (F := Ideal) x0 x1 x2 x3 x4 x5 x6 (ix2 p j)
      = adapterRow (fun k => x0 (ix2 p k)) (fun k => x1 (ix2 0 k)) (fun k => x2 (ix2 0 k)) (fun k a => x3 (ix2 k a))
          (fun a => x4 (ix2 0 a)) (fun a j => x5 (ix2 a j)) (fun j => x6 (ix2 0 j)) j := by
  rw [out_eq_outBlk]
  exact outBlk_apply x0 x1 x2 x3 x4 x5 x6 p j

end Cert.Adapter.Kernel

end
-- ==== Proof.AdapterLayouts.lean ====
/-
  The adapter block over the flattened rows is the adapter block over [8, 4096, 1024].

  Flattening [8, 4096, 1024] to [32768, 1024] keeps row-major order, so row (b, s) of the first is row
  4096 b + s of the second, with the same 1024 entries; a vector of C entries reshaped to the one-row matrix
  [1, C] has the same entries.  Hence the adapter block of the flattened input and the one-row parameters,
  reshaped back to [8, 4096, 1024], is the adapter block of the input and the vector parameters.
-/
import proofs.«118381_j35880156791633_2_alg».proof.Proof.AdapterSpec
import proofs.«118381_j35880156791633_2_alg».proof.Proof.LibRows
import Idealize.ShloMosaic.Lib.Pipeline.Value
import Idealize.ShloMosaic.Lib.ValueIdx

noncomputable section

namespace Cert.Adapter

open Idealize.ShloMosaic Idealize.ShloMosaic.ValueIdx
open scoped BigOperators

/-- Row (b, s) of [8, 4096, 1024] is row 4096 b + s of its flattening. -/
theorem flatRow_lt (b : Fin 8) (s : Fin 4096) : b.val * 4096 + s.val < 32768 := by
  have := b.isLt; have := s.isLt; omega

/-- The flattening [8, 4096, 1024] → [32768, 1024], read at row 4096 b + s and column k, is the array at (b, s, k). -/
theorem flatten_apply {α : Type} (X : (⟨3, ![8, 4096, 1024]⟩ : Shape).Idx → α)
    (h : (⟨3, ![8, 4096, 1024]⟩ : Shape).ShapeCasts ⟨2, ![32768, 1024]⟩) (b : Fin 8) (s : Fin 4096) (k : Fin 1024) :
    shapeCast ⟨2, ![32768, 1024]⟩ X h (ix2 ⟨b.val * 4096 + s.val, flatRow_lt b s⟩ k) = X (ix3 b s k) :=
  shapeCast_apply X h _ _ (by
    rw [Shape.rowMajor_val_three, Shape.rowMajor_val_two]
    show (b.val * 4096 + s.val) * 1024 + k.val = (b.val * 4096 + s.val) * 1024 + k.val
    rfl)

/-- The reshape [32768, 1024] → [8, 4096, 1024], read at (b, s, j), is the matrix at row 4096 b + s, column j. -/
theorem unflatten_apply {α : Type} (Y : (⟨2, ![32768, 1024]⟩ : Shape).Idx → α)
    (h : (⟨2, ![32768, 1024]⟩ : Shape).ShapeCasts ⟨3, ![8, 4096, 1024]⟩) (b : Fin 8) (s : Fin 4096) (j : Fin 1024) :
    shapeCast ⟨3, ![8, 4096, 1024]⟩ Y h (ix3 b s j) = Y (ix2 ⟨b.val * 4096 + s.val, flatRow_lt b s⟩ j) :=
  shapeCast_apply Y h _ _ (by
    rw [Shape.rowMajor_val_three, Shape.rowMajor_val_two]
    show (b.val * 4096 + s.val) * 1024 + j.val = (b.val * 4096 + s.val) * 1024 + j.val
    rfl)

/-- The adapter block of the flattened input and the one-row parameters, reshaped back, is the adapter block of the
    input and the vector parameters. -/
theorem adapter2_flat_eq_adapter3 (X : (⟨3, ![8, 4096, 1024]⟩ : Shape).Idx → EReal) (w b : (⟨1, ![1024]⟩ : Shape).Idx → EReal)
    (wd : (⟨2, ![1024, 256]⟩ : Shape).Idx → EReal) (bd : (⟨1, ![256]⟩ : Shape).Idx → EReal)
    (wu : (⟨2, ![256, 1024]⟩ : Shape).Idx → EReal) (bu : (⟨1, ![1024]⟩ : Shape).Idx → EReal)
    (hX : (⟨3, ![8, 4096, 1024]⟩ : Shape).ShapeCasts ⟨2, ![32768, 1024]⟩)
    (hY : (⟨2, ![32768, 1024]⟩ : Shape).ShapeCasts ⟨3, ![8, 4096, 1024]⟩)
    (h1024 : (⟨1, ![1024]⟩ : Shape).ShapeCasts ⟨2, ![1, 1024]⟩) (h256 : (⟨1, ![256]⟩ : Shape).ShapeCasts ⟨2, ![1, 256]⟩) :
    shapeCast ⟨3, ![8, 4096, 1024]⟩
        (adapter2 (shapeCast ⟨2, ![32768, 1024]⟩ X hX) (shapeCast ⟨2, ![1, 1024]⟩ w h1024) (shapeCast ⟨2, ![1, 1024]⟩ b h1024) wd
          (shapeCast ⟨2, ![1, 256]⟩ bd h256) wu (shapeCast ⟨2, ![1, 1024]⟩ bu h1024)) hY
      = adapter3 X w b wd bd wu bu := by
  funext i
  obtain ⟨p, q, j, rfl⟩ : ∃ (p : Fin 8) (q : Fin 4096) (j : Fin 1024), i = ix3 p q j := ⟨i 0, i 1, i 2, eq_ix3 i⟩
  rw [unflatten_apply]
  unfold adapter2 adapter3
  simp only [flatten_apply, Cert.Lib.Rows.shapeCast_vec_row_apply]

end Cert.Adapter

end
-- ==== Proof.KernelRun.lean ====
/-
  The kernel's run computes the adapter block.

  The grid has 32 points; point t loads rows 1024 t … 1024 t + 1023 of the flattened input and the whole of
  each parameter array, and writes the same rows of the result.  Every row of the flattened result lies in
  exactly the block of point ⌊row / 1024⌋, so after the run the result array holds, row by row, the adapter's
  output row of the flattened input's row.  The host lines before the kernel flatten the input, lay the vector
  parameters out as one-row matrices and round the two matrices to a shorter float format (the identity at the
  exact values); the host line after it reshapes the result back to [8, 4096, 1024].
-/
import proofs.«118381_j35880156791633_2_alg».proof.Proof.Gen.KernelIdeal.Frame
import proofs.«118381_j35880156791633_2_alg».proof.Proof.KernelRow
import proofs.«118381_j35880156791633_2_alg».proof.Proof.AdapterLayouts
import Idealize.ShloMosaic.Lib.Pipeline.Value
import Idealize.ShloMosaic.Lib.StableHlo.Run
import Idealize.ShloMosaic.Lib.Tactic

noncomputable section

namespace Cert.Adapter.KernelRun

open Cert.KernelIdeal Cert.KernelIdeal.Gen Idealize.ShloMosaic Idealize.ShloMosaic.TcCoe Idealize.SL.Sem
open Idealize.ShloMosaic.ValueIdx Cert.Adapter
open Idealize.ShloMosaic.Pipeline (Dat)

variable (m : (ℓ : Loc nD τ sig) → Buf (Elt Ideal) ℓ) (ρ : Dev nD → PrngReg)

/-! ## Which block each window has at a grid point -/

/-- The input and the result move one block of rows per point; every parameter window stays at its one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of point t's block is row 1024 t + p of the flattened array. -/
theorem blockRow_lt (t : Fin cfg0.N) (p : Fin 1024) : t.val * 1024 + p.val < 32768 := by
  have h1 := t.isLt; have hN : cfg0.N = 32 := N_0; have h2 := p.isLt; omega

/-! ## The windows' blocks as entries of the arrays the kernel is launched on -/

theorem iblk0_apply (c : Dev nD) (t : Fin cfg0.N) (p k : Fin 1024) :
    (iblk m c 0 t : Vec Ideal S1024x1024 .f32) (ix2 p k)
      = (V m c main_v0 : S32768x1024.Idx → EReal) (ix2 ⟨t.val * 1024 + p.val, blockRow_lt t p⟩ k) := by
  obtain ⟨h0, h1, -⟩ := index_facts t
  unfold iblk
  rw [View.read_apply]
  show V m c main_v0 _ = V m c main_v0 _
  refine congrArg (V m c main_v0 : S32768x1024.Idx → EReal) (funext fun a => Fin.ext ?_)
  match a with
  | ⟨0, _⟩ => show win0_0.index t (0 : Fin 2) * 1024 + 1 * p.val = t.val * 1024 + p.val; rw [h0]; omega
  | ⟨1, _⟩ => show win0_0.index t (1 : Fin 2) * 1024 + 1 * k.val = k.val; rw [h1]; omega

theorem iblk1_apply (c : Dev nD) (t : Fin cfg0.N) (u : Fin 1) (k : Fin 1024) :
    (iblk m c 1 t : Vec Ideal S1x1024 .f32) (ix2 u k) = (V m c main_v1 : S1x1024.Idx → EReal) (ix2 u k) := by
  obtain ⟨-, -, h0, h1, -⟩ := index_facts t
  unfold iblk
  rw [View.read_apply]
  show V m c main_v1 _ = V m c main_v1 _
  refine congrArg (V m c main_v1 : S1x1024.Idx → EReal) (funext fun a => Fin.ext ?_)
  match a with
  | ⟨0, _⟩ => show win0_1.index t (0 : Fin 2) * 1 + 1 * u.val = u.val; rw [h0]; omega
  | ⟨1, _⟩ => show win0_1.index t (1 : Fin 2) * 1024 + 1 * k.val = k.val; rw [h1]; omega

theorem iblk2_apply (c : Dev nD) (t : Fin cfg0.N) (u : Fin 1) (k : Fin 1024) :
    (iblk m c 2 t : Vec Ideal S1x1024 .f32) (ix2 u k) = (V m c main_v2 : S1x1024.Idx → EReal) (ix2 u k) := by
  obtain ⟨-, -, -, -, h0, h1, -⟩ := index_facts t
  unfold iblk
  rw [View.read_apply]
  show V m c main_v2 _ = V m c main_v2 _
  refine congrArg (V m c main_v2 : S1x1024.Idx → EReal) (funext fun a => Fin.ext ?_)
  match a with
  | ⟨0, _⟩ => show win0_2.index t (0 : Fin 2) * 1 + 1 * u.val = u.val; rw [h0]; omega
  | ⟨1, _⟩ => show win0_2.index t (1 : Fin 2) * 1024 + 1 * k.val = k.val; rw [h1]; omega

theorem iblk3_apply (c : Dev nD) (t : Fin cfg0.N) (k : Fin 1024) (a : Fin 256) :
    (iblk m c 3 t : Vec Ideal S1024x256 .bf16) (ix2 k a) = (V m c main_v5 : S1024x256.Idx → EReal) (ix2 k a) := by
  obtain ⟨-, -, -, -, -, -, h0, h1, -⟩ := index_facts t
  unfold iblk
  rw [View.read_apply]
  show V m c main_v5 _ = V m c main_v5 _
  refine congrArg (V m c main_v5 : S1024x256.Idx → EReal) (funext fun d => Fin.ext ?_)
  match d with
  | ⟨0, _⟩ => show win0_3.index t (0 : Fin 2) * 1024 + 1 * k.val = k.val; rw [h0]; omega
  | ⟨1, _⟩ => show win0_3.index t (1 : Fin 2) * 256 + 1 * a.val = a.val; rw [h1]; omega

theorem iblk4_apply (c : Dev nD) (t : Fin cfg0.N) (u : Fin 1) (a : Fin 256) :
    (iblk m c 4 t : Vec Ideal S1x256 .f32) (ix2 u a) = (V m c main_v3 : S1x256.Idx → EReal) (ix2 u a) := by
  obtain ⟨-, -, -, -, -, -, -, -, h0, h1, -⟩ := index_facts t
  unfold iblk
  rw [View.read_apply]
  show V m c main_v3 _ = V m c main_v3 _
  refine congrArg (V m c main_v3 : S1x256.Idx → EReal) (funext fun d => Fin.ext ?_)
  match d with
  | ⟨0, _⟩ => show win0_4.index t (0 : Fin 2) * 1 + 1 * u.val = u.val; rw [h0]; omega
  | ⟨1, _⟩ => show win0_4.index t (1 : Fin 2) * 256 + 1 * a.val = a.val; rw [h1]; omega

theorem iblk5_apply (c : Dev nD) (t : Fin cfg0.N) (a : Fin 256) (j : Fin 1024) :
    (iblk m c 5 t : Vec Ideal S256x1024 .bf16) (ix2 a j) = (V m c main_v6 : S256x1024.Idx → EReal) (ix2 a j) := by
  obtain ⟨-, -, -, -, -, -, -, -, -, -, h0, h1, -⟩ := index_facts t
  unfold iblk
  rw [View.read_apply]
  show V m c main_v6 _ = V m c main_v6 _
  refine congrArg (V m c main_v6 : S256x1024.Idx → EReal) (funext fun d => Fin.ext ?_)
  match d with
  | ⟨0, _⟩ => show win0_5.index t (0 : Fin 2) * 256 + 1 * a.val = a.val; rw [h0]; omega
  | ⟨1, _⟩ => show win0_5.index t (1 : Fin 2) * 1024 + 1 * j.val = j.val; rw [h1]; omega

theorem iblk6_apply (c : Dev nD) (t : Fin cfg0.N) (u : Fin 1) (k : Fin 1024) :
    (iblk m c 6 t : Vec Ideal S1x1024 .f32) (ix2 u k) = (V m c main_v4 : S1x1024.Idx → EReal) (ix2 u k) := by
  obtain ⟨-, -, -, -, -, -, -, -, -, -, -, -, h0, h1, -⟩ := index_facts t
  unfold iblk
  rw [View.read_apply]
  show V m c main_v4 _ = V m c main_v4 _
  refine congrArg (V m c main_v4 : S1x1024.Idx → EReal) (funext fun d => Fin.ext ?_)
  match d with
  | ⟨0, _⟩ => show win0_6.index t (0 : Fin 2) * 1 + 1 * u.val = u.val; rw [h0]; omega
  | ⟨1, _⟩ => show win0_6.index t (1 : Fin 2) * 1024 + 1 * k.val = k.val; rw [h1]; omega

/-! ## The result array after the kernel -/

/-- The adapter block over the flattened rows, of the arrays the kernel is launched on. -/
def flatResult (c : Dev nD) : S32768x1024.Idx → EReal :=
  adapter2 (V m c main_v0) (V m c main_v1) (V m c main_v2) (V m c main_v5) (V m c main_v3) (V m c main_v6) (V m c main_v4)

/-- What point t writes back is its block of rows of the adapter block. -/
theorem flushed_eq (c : Dev nD) (t : Fin cfg0.N) :
    (dats m 0 c).flushed 7 t = ((cfg0.win 7).blk t).view.read (Elt Ideal) (flatResult m c) := by
  show (cfg0.win 7).cut (grid0.coords t) ((dats m 0 c).after 7 t) = _
  rw [after0_7]
  refine funext fun (y : S1024x1024.Idx) => ?_
  obtain ⟨p, j, rfl⟩ : ∃ (p j : Fin 1024), y = ix2 p j := ⟨y 0, y 1, eq_ix2 y⟩
  obtain ⟨-, -, -, -, -, -, -, -, -, -, -, -, -, -, h0, h1⟩ := index_facts t
  have he : ((cfg0.win 7).blk t).view.emb (ix2 p j) = (ix2 ⟨t.val * 1024 + p.val, blockRow_lt t p⟩ j : S32768x1024.Idx) :=
    funext fun a => Fin.ext (by
      match a with
      | ⟨0, _⟩ => show win0_7.index t (0 : Fin 2) * 1024 + 1 * p.val = t.val * 1024 + p.val; rw [h0]; omega
      | ⟨1, _⟩ => show win0_7.index t (1 : Fin 2) * 1024 + 1 * j.val = j.val; rw [h1]; omega)
  show out0_7 (iblk m c 0 t) (iblk m c 1 t) (iblk m c 2 t) (iblk m c 3 t) (iblk m c 4 t) (iblk m c 5 t) (iblk m c 6 t) (ix2 p j)
    = flatResult m c (((cfg0.win 7).blk t).view.emb (ix2 p j))
  rw [he]
  refine (Cert.Adapter.Kernel.out_apply _ _ _ _ _ _ _ p j).trans ?_
  unfold flatResult adapter2
  simp only [iblk0_apply, iblk1_apply, iblk2_apply, iblk3_apply, iblk4_apply, iblk5_apply, iblk6_apply]

/-- An index of the result array is in point t's block iff each coordinate is in the block's range on its axis. -/
theorem mem_blk (t : Fin cfg0.N) (i : S32768x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v7).slice (win0_7.rect t)).set ↔ _
  rw [View.set_slice_whole, Rect.mem_set_unit]
  exact Iff.rfl

/-- Every entry of the result array is in the block of the point its row falls in. -/
theorem covered (i : S32768x1024.Idx) : ∃ t : Fin cfg0.N, (cfg0.win 7).flush t = true ∧ i ∈ ((cfg0.win 7).blk t).view.set := by
  have hi0 : (i 0).val < 32768 := (i 0).isLt
  have hi1 : (i 1).val < 1024 := (i 1).isLt
  have hN : cfg0.N = 32 := N_0
  let t : Fin cfg0.N := ⟨(i 0).val / 1024, by omega⟩
  obtain ⟨-, -, -, -, -, -, -, -, -, -, -, -, -, -, h0, h1⟩ := index_facts t
  have ht : t.val = (i 0).val / 1024 := rfl
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; rw [h0, ht]; omega
  | ⟨1, _⟩ => show win0_7.index t (1 : Fin 2) * 1024 ≤ (i 1).val ∧ (i 1).val < win0_7.index t (1 : Fin 2) * 1024 + 1024; rw [h1]; omega

/-- So the result array ends holding the adapter block over the flattened rows. -/
theorem final_flat (c : Dev nD) : (dats m 0 c).arrAt 7 cfg0.N = flatResult m c :=
  (dats m 0 c).arrAt_eq_of_cover 7 (flatResult m c) (fun t _ => flushed_eq m c t) covered

/-! ## The host lines around the kernel -/

/-- The kernel is launched on the flattened input, -/
theorem V_v0 (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results
  rfl
/-- on the normalisation's weight and bias as one-row matrices, -/
theorem V_v1 (c : Dev nD) : (V m c main_v1 : S1x1024.Idx → EReal)
    = shapeCast S1x1024 (m ((c : Thread nD τ).loc main_arg1)) shapeCasts_S1024_S1x1024 := by
  show StableHlo.after hostOps0 (fun b => m (c, b)) (Proc.devRef .tc main_v1) = _
  after_results
  rfl
theorem V_v2 (c : Dev nD) : (V m c main_v2 : S1x1024.Idx → EReal)
    = shapeCast S1x1024 (m ((c : Thread nD τ).loc main_arg2)) shapeCasts_S1024_S1x1024 := by
  show StableHlo.after hostOps0 (fun b => m (c, b)) (Proc.devRef .tc main_v2) = _
  after_results
  rfl
/-- on the two projections' biases as one-row matrices, -/
theorem V_v3 (c : Dev nD) : (V m c main_v3 : S1x256.Idx → EReal)
    = shapeCast S1x256 (m ((c : Thread nD τ).loc main_arg4)) shapeCasts_S256_S1x256 := by
  show StableHlo.after hostOps0 (fun b => m (c, b)) (Proc.devRef .tc main_v3) = _
  after_results
  rfl
theorem V_v4 (c : Dev nD) : (V m c main_v4 : S1x1024.Idx → EReal)
    = shapeCast S1x1024 (m ((c : Thread nD τ).loc main_arg6)) shapeCasts_S1024_S1x1024 := by
  show StableHlo.after hostOps0 (fun b => m (c, b)) (Proc.devRef .tc main_v4) = _
  after_results
  rfl
/-- and on the two projection matrices rounded to the shorter format: at the exact values, the matrices themselves. -/
theorem V_v5 (c : Dev nD) : (V m c main_v5 : S1024x256.Idx → EReal) = m ((c : Thread nD τ).loc main_arg3) := by
  show StableHlo.after hostOps0 (fun b => m (c, b)) (Proc.devRef .tc main_v5) = _
  after_results
  rfl
theorem V_v6 (c : Dev nD) : (V m c main_v6 : S256x1024.Idx → EReal) = m ((c : Thread nD τ).loc main_arg5) := by
  show StableHlo.after hostOps0 (fun b => m (c, b)) (Proc.devRef .tc main_v6) = _
  after_results
  rfl

/-- After the host line that follows the kernel, the program's result is the adapter block of the arguments. -/
theorem result_eq (c : Dev nD) :
    Pipeline.afterTail₀ cfgs (dats m) 0 (V0 m) [hostOps1] c main_v8
      = adapter3 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = flatResult m c :=
    (Pipeline.withArrays_arr spec0 launch0.win.arr_inj c _ _ 7).trans (final_flat m c)
  show shapeCast S8x4096x1024 (Pipeline.withArrays (cfgs 0).spec c (V0 m c) (fun w => (dats m 0 c).arrAt w (cfgs 0).N)
      (Proc.devRef .tc main_v7)) shapeCasts_S32768x1024_S8x4096x1024 = _
  rw [hw]
  unfold flatResult
  rw [V_v0, V_v1, V_v2, V_v3, V_v4, V_v5, V_v6]
  exact adapter2_flat_eq_adapter3 _ _ _ _ _ _ _ _ _ _ _

/-! ## The run, read -/

/-- Every weakly fair execution of the kernel's program terminates with its result at the adapter block of the
    arguments and the arguments unchanged. -/
theorem run : θ_run defs (onTc (τ := τ) (main (F := Ideal))) ⟨m, fun _ => 0, ρ⟩ fun r => ∀ c : Dev nD,
      r.2.mem ((c.tc : Thread nD τ).loc main_v8)
        = adapter3 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Adapter.KernelRun

end
-- ==== Proof.lean ====
/-
  The adapter block — layer normalisation, a projection down to 256 entries, the tanh form of GELU, a projection
  back up to 1024 entries, plus the input — computed by a kernel over blocks of 1024 rows of the flattened input
  and by a host program over the array [8, 4096, 1024]: at the exact values the two results are one function of
  the arguments.

  Both programs divide the row sums by the same float 1024, shift the variance by the same float, and use the
  same four GELU constants, so no constant is evaluated.  The kernel's matrix products into a zero accumulator
  and the host's contractions are the same finite sums; the kernel's rounding of the matrix operands to a
  shorter float format is the identity at the exact values; the host's row sums start from a zero that adds
  nothing; and the one difference in the arithmetic, the cube as d · (d · d) against (d · d) · d, is
  commutativity of the product.  No law used needs the inputs finite, so the precondition is never opened.

  The modules: AdapterSpec (the function, row by row), RefIsAdapter (the host program is it), KernelRow (one
  block of the kernel is it, row by row), AdapterLayouts (the flattened rows against [8, 4096, 1024]), KernelRun
  (the kernel's blocks cover the result array; the host lines around it).  The three frames are the generated
  ones; the kernel's idealization rewrote nothing.
-/
import proofs.«118381_j35880156791633_2_alg».proof.Defs
import proofs.«118381_j35880156791633_2_alg».proof.Proof.Gen.Kernel
import proofs.«118381_j35880156791633_2_alg».proof.Proof.Gen.Kernel.Skeleton
import proofs.«118381_j35880156791633_2_alg».proof.Proof.Gen.Kernel.Launch
import proofs.«118381_j35880156791633_2_alg».proof.Proof.Gen.Kernel.Points
import proofs.«118381_j35880156791633_2_alg».proof.Proof.Gen.Kernel.Frame
import proofs.«118381_j35880156791633_2_alg».proof.Proof.Gen.KernelIdeal
import proofs.«118381_j35880156791633_2_alg».proof.Proof.Gen.KernelIdeal.Skeleton
import proofs.«118381_j35880156791633_2_alg».proof.Proof.Gen.KernelIdeal.Launch
import proofs.«118381_j35880156791633_2_alg».proof.Proof.Gen.KernelIdeal.Points
import proofs.«118381_j35880156791633_2_alg».proof.Proof.Gen.KernelIdeal.Frame
import proofs.«118381_j35880156791633_2_alg».proof.Proof.Gen.ReferenceIdeal
import proofs.«118381_j35880156791633_2_alg».proof.Proof.Gen.ReferenceIdeal.Run
import proofs.«118381_j35880156791633_2_alg».proof.Proof.Gen.ReferenceIdeal.Read
import proofs.«118381_j35880156791633_2_alg».proof.Proof.Gen.Pre_finite_inputs
import proofs.«118381_j35880156791633_2_alg».proof.Proof.RefIsAdapter
import proofs.«118381_j35880156791633_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The kernel read at the exact values runs and keeps its arguments. -/
theorem frame_kernelIdeal : Cert.frame_KernelIdeal := fun m ρ _ => Cert.KernelIdeal.Gen.frame m ρ

/-- The host program runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the adapter block of the arguments. -/
theorem algebraic : Cert.algebraic_KernelIdeal_ReferenceIdeal := by
  intro m ρ m' ρ' _ hagree
  refine ⟨fun c => Cert.Adapter.adapter3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.Adapter.KernelRun.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6⟩ := hagree c
  rw [(h c).1, Cert.ReferenceIdeal.Read.val_main_v45_eq, Cert.Adapter.Ref.val_eq_adapter3, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
